-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4x2048x2048 : Shape := ⟨3, ![4, 2048, 2048]⟩
abbrev S4x2048 : Shape := ⟨2, ![4, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_

variable [Facts]

def fn_part2 {F : FTy → Type} [FloatOps F] (main_arg7 : FVec F S4x2048 .f32) (main_v33 : IVec S_ 1) : IVec S_ 1 :=
  let main_v34 : FVec F S4x2048 .f32 := Host.absf main_arg7
  let main_cst_12 : FVec F S_ .f32 := constant S_ .f32 0x7F800000#32
  let main_v35 : FVec F S4x2048 .f32 := broadcastInDim S4x2048 ![] bcast_S_S4x2048 main_cst_12
  let main_v36 : IVec S4x2048 1 := cmpf .olt main_v34 main_v35
  let main_c_13 : IVec S_ 1 := constantI S_ 1 1#1
  let main_v37 : IVec S_ 1 := (fun x v => Host.reduce IntOp.andi x v reducesTo_S4x2048_S_d0_1 h_S_) main_v36 main_c_13
  let main_v38 : IVec S_ 1 := andi main_v33 main_v37
  main_v38

def fn_part1 {F : FTy → Type} [FloatOps F] (main_arg4 : FVec F S4x2048 .f32) (main_arg5 : FVec F S4x2048x2048 .f32) (main_arg6 : FVec F S4x2048 .f32) (main_arg7 : FVec F S4x2048 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048 .f32 := Host.absf main_arg4
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  let main_v24 : FVec F S4x2048x2048 .f32 := Host.absf main_arg5
  let main_cst_8 : FVec F S_ .f32 := constant S_ .f32 0x7F800000#32
  let main_v25 : FVec F S4x2048x2048 .f32 := broadcastInDim S4x2048x2048 ![] bcast_S_S4x2048x2048 main_cst_8
  let main_v26 : IVec S4x2048x2048 1 := cmpf .olt main_v24 main_v25
  let main_c_9 : IVec S_ 1 := constantI S_ 1 1#1
  let main_v27 : IVec S_ 1 := (fun x v => Host.reduce IntOp.andi x v reducesTo_S4x2048x2048_S_d0_1_2 h_S_) main_v26 main_c_9
  let main_v28 : IVec S_ 1 := andi main_v23 main_v27
  let main_v29 : FVec F S4x2048 .f32 := Host.absf main_arg6
  let main_cst_10 : FVec F S_ .f32 := constant S_ .f32 0x7F800000#32
  let main_v30 : FVec F S4x2048 .f32 := broadcastInDim S4x2048 ![] bcast_S_S4x2048 main_cst_10
  let main_v31 : IVec S4x2048 1 := cmpf .olt main_v29 main_v30
  let main_c_11 : IVec S_ 1 := constantI S_ 1 1#1
  let main_v32 : IVec S_ 1 := (fun x v => Host.reduce IntOp.andi x v reducesTo_S4x2048_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S4x2048x2048 .f32) (main_arg4 : FVec F S4x2048 .f32) (main_arg5 : FVec F S4x2048x2048 .f32) (main_arg6 : FVec F S4x2048 .f32) (main_arg7 : FVec F S4x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S4x2048x2048 : Shape := ⟨3, ![4, 2048, 2048]⟩
abbrev S4x2048 : Shape := ⟨2, ![4, 2048]⟩
abbrev S128x2048 : Shape := ⟨2, ![128, 2048]⟩
abbrev S4x2048x512 : Shape := ⟨3, ![4, 2048, 512]⟩
abbrev S4x512 : Shape := ⟨2, ![4, 512]⟩
abbrev S128x512 : Shape := ⟨2, ![128, 512]⟩
abbrev S1x2048x512 : Shape := ⟨3, ![1, 2048, 512]⟩
abbrev S2048x512 : Shape := ⟨2, ![2048, 512]⟩
abbrev S1x512 : Shape := ⟨2, ![1, 512]⟩
abbrev S512 : Shape := ⟨1, ![512]⟩

abbrev nBuf : Space → Nat
  | .hbm => 18
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4096x2048, .bf16⟩
  | .hbm, ⟨11, _⟩ => ⟨S4096x2048, .bf16⟩
  | .hbm, ⟨12, _⟩ => ⟨S4x2048x2048, .f32⟩
  | .hbm, ⟨13, _⟩ => ⟨S4x2048x2048, .bf16⟩
  | .hbm, ⟨14, _⟩ => ⟨S4x2048x2048, .f32⟩
  | .hbm, ⟨15, _⟩ => ⟨S4x2048x2048, .bf16⟩
  | .hbm, ⟨16, _⟩ => ⟨S4096x2048, .f32⟩
  | .hbm, ⟨17, _⟩ => ⟨S4096x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S4x2048x512, .bf16⟩
  | .local _ .vmem, ⟨5, _⟩ => ⟨S4x2048x512, .bf16⟩
  | .local _ .vmem, ⟨6, _⟩ => ⟨S4x2048x512, .bf16⟩
  | .local _ .vmem, ⟨7, _⟩ => ⟨S4x2048x512, .bf16⟩
  | .local _ .vmem, ⟨8, _⟩ => ⟨S4x512, .f32⟩
  | .local _ .vmem, ⟨9, _⟩ => ⟨S4x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  transposes_S4x2048x2048_S4x2048x2048_0_2_1 : S4x2048x2048.Transposes [0, 2, 1] S4x2048x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x512_S128x512_0_0 : ∀ a, (![0, 0] : Fin 2 → Nat) a + S128x512.size a ≤ S128x512.size a
  h_S128x512 : 0 < S128x512.numel
  inb_S4x2048x512_S1x2048x512_0_0_0 : ∀ a, (![0, 0, 0] : Fin 3 → Nat) a + S1x2048x512.size a ≤ S4x2048x512.size a
  h_S1x2048x512 : 0 < S1x2048x512.numel
  shapeCasts_S1x2048x512_S2048x512 : S1x2048x512.ShapeCasts S2048x512
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S1x512_S128x512 : S1x512.Broadcasts S128x512
  inb_S4x2048x512_S1x2048x512_1_0_0 : ∀ a, (![1, 0, 0] : Fin 3 → Nat) a + S1x2048x512.size a ≤ S4x2048x512.size a
  inb_S4x512_S1x512_1_0 : ∀ a, (![1, 0] : Fin 2 → Nat) a + S1x512.size a ≤ S4x512.size a
  inb_S4x2048x512_S1x2048x512_2_0_0 : ∀ a, (![2, 0, 0] : Fin 3 → Nat) a + S1x2048x512.size a ≤ S4x2048x512.size a
  inb_S4x512_S1x512_2_0 : ∀ a, (![2, 0] : Fin 2 → Nat) a + S1x512.size a ≤ S4x512.size a
  inb_S4x2048x512_S1x2048x512_3_0_0 : ∀ a, (![3, 0, 0] : Fin 3 → Nat) a + S1x2048x512.size a ≤ S4x2048x512.size a
  inb_S4x512_S1x512_3_0 : ∀ a, (![3, 0] : Fin 2 → Nat) a + S1x512.size a ≤ S4x512.size a
  dot_S128x2048_S2048x512_S128x512_1_0_0_1_n_n_wf : DotDims.WF S128x2048 S2048x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .bf16 = 32 ∨ (Rect.block (s := S4096x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .bf16 = 32 ∨ (Rect.block (s := S4096x2048) S128x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048x512.size a ≤ S4x2048x2048.size a
  hwx0_2 : ∀ i : grid0.Coords, EltTy.bits .bf16 = 32 ∨ (Rect.block (s := S4x2048x2048) S4x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048x512.size a ≤ S4x2048x2048.size a
  hwx0_3 : ∀ i : grid0.Coords, EltTy.bits .bf16 = 32 ∨ (Rect.block (s := S4x2048x2048) S4x2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x2048.size a
  hwx0_4 : ∀ i : grid0.Coords, EltTy.bits .f32 = 32 ∨ (Rect.block (s := S4x2048) S4x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S4096x2048.size a
  hwx0_5 : ∀ i : grid0.Coords, EltTy.bits .f32 = 32 ∨ (Rect.block (s := S4096x2048) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S4096x2048.size a
  hwx0_6 : ∀ i : grid0.Coords, EltTy.bits .f32 = 32 ∨ (Rect.block (s := S4096x2048) S128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S4096x2048.size a
  hwx0_7 : ∀ i : grid0.Coords, EltTy.bits .f32 = 32 ∨ (Rect.block (s := S4096x2048) S128x512.size (cc0_transform_7 i) (hinb0_7 i)).WholeWords (EltTy.packing .f32)

variable [Facts₀]

def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf

abbrev win0_0 : Pipeline.Window sig grid0 :=
  Pipeline.Window.ofSpec (Memref.whole main_v2) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S128x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4x2048x2048 : Shape := ⟨3, ![4, 2048, 2048]⟩
abbrev S4x2048 : Shape := ⟨2, ![4, 2048]⟩
abbrev S4096x4x2048 : Shape := ⟨3, ![4096, 4, 2048]⟩
abbrev S1x4x2048 : Shape := ⟨3, ![1, 4, 2048]⟩
abbrev S4096x1x2048 : Shape := ⟨3, ![4096, 1, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048, .f32⟩
  | .hbm, ⟨8, _⟩ => ⟨S4096x4x2048, .f32⟩
  | .hbm, ⟨9, _⟩ => ⟨S4096x4x2048, .f32⟩
  | .hbm, ⟨10, _⟩ => ⟨S4096x4x2048, .f32⟩
  | .hbm, ⟨11, _⟩ => ⟨S4x2048, .f32⟩
  | .hbm, ⟨12, _⟩ => ⟨S4x2048, .f32⟩
  | .hbm, ⟨13, _⟩ => ⟨S1x4x2048, .f32⟩
  | .hbm, ⟨14, _⟩ => ⟨S4096x4x2048, .f32⟩
  | .hbm, ⟨15, _⟩ => ⟨S4096x4x2048, .f32⟩
  | .hbm, ⟨16, _⟩ => ⟨S4096x1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x1x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S4x2048_S1x4x2048_1_2 : S4x2048.BroadcastsInDim S1x4x2048 (![1, 2] : Fin 2 → Fin S1x4x2048.rank)
  bcast_S1x4x2048_S4096x4x2048_0_1_2 : S1x4x2048.BroadcastsInDim S4096x4x2048 (![0, 1, 2] : Fin 3 → Fin S4096x4x2048.rank)
  slices_S4096x4x2048_S4096x1x2048_0_0_0 : S4096x4x2048.Slices ![0, 0, 0] S4096x1x2048
  shapeCasts_S4096x1x2048_S4096x2048 : S4096x1x2048.ShapeCasts S4096x2048
  bcast_S_S4096x2048 : S_.BroadcastsInDim S4096x2048 (![] : Fin 0 → Fin S4096x2048.rank)
  slices_S4096x4x2048_S4096x1x2048_0_1_0 : S4096x4x2048.Slices ![0, 1, 0] S4096x1x2048
  slices_S4096x4x2048_S4096x1x2048_0_2_0 : S4096x4x2048.Slices ![0, 2, 0] S4096x1x2048
  slices_S4096x4x2048_S4096x1x2048_0_3_0 : S4096x4x2048.Slices ![0, 3, 0] S4096x1x2048
  dot_S4096x2048_S4x2048x2048_S4096x4x2048_1_2_0_01_n_n_wf : DotDims.WF S4096x2048 S4x2048x2048 S4096x4x2048 [1] [2] [0] [0, 1] [] []

variable [Facts₀]

def dot_S4096x2048_S4x2048x2048_S4096x4x2048_1_2_0_01_n_n : DotDims S4096x2048 S4x2048x2048 S4096x4x2048 where
  lhsContracting := [1]
  rhsContracting := [2]
  lhsNonContracting := [0]
  rhsNonContracting := [0, 1]
  lhsBatch := []
  rhsBatch := []
  wf := dot_S4096x2048_S4x2048x2048_S4096x4x2048_1_2_0_01_n_n_wf

class Facts : Prop extends Facts₀ where

variable [Facts]
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.BlockGate.lean ====
/-
  One gate of one output block, read at an entry.

  Inside a grid point the body holds 128 rows of x and of h (each [128, 2048]), for each gate a [1, 2048, 512] slab of
  the transposed input weights and of the transposed hidden weights, and a [1, 512] row of the summed biases. A gate's
  pre-activation for the block is  rows_x · slab_W + rows_h · slab_V + bias row (broadcast over the 128 rows),
  each product accumulated from zero. At entry (p, q) that is
      (Σ_l x[p, l] · slab_W[0, l, q] + Σ_l h[p, l] · slab_V[0, l, q]) + bias[0, q].
-/
import Idealize.ShloMosaic.Lib.ValueIdx
import Idealize.ShloMosaic.Lib.ValueLayout
import Idealize.ShloMosaic.Lib.Pipeline.Value
import Idealize.ShloMosaic.PureOps.Ideal.Laws
import proofs.«115387_j12618613916356_2_alg».proof.Proof.LibPlainDot

noncomputable section

open scoped BigOperators

namespace Cert.BlockGate

open Idealize.ShloMosaic Idealize.ShloMosaic.ValueIdx

/-- The gate's pre-activation for the block at entry `(p, q)`, from the rows, the two slabs and the bias row. -/
theorem gate_apply (D : DotDims ⟨2, ![128, 2048]⟩ ⟨2, ![2048, 512]⟩ ⟨2, ![128, 512]⟩) (hD : D = DotDims.plain 128 2048 512)
    (A B : FVec Ideal ⟨2, ![128, 2048]⟩ .bf16) (Wb Vb : FVec Ideal ⟨3, ![1, 2048, 512]⟩ .bf16) (bb : FVec Ideal ⟨2, ![1, 512]⟩ .f32)
    (h1 : (⟨3, ![1, 2048, 512]⟩ : Shape).ShapeCasts ⟨2, ![2048, 512]⟩)
    (h2 : (⟨2, ![1, 512]⟩ : Shape).ShapeCasts ⟨1, ![512]⟩) (h3 : (⟨1, ![512]⟩ : Shape).ShapeCasts ⟨2, ![1, 512]⟩)
    (h4 : (⟨2, ![1, 512]⟩ : Shape).Broadcasts ⟨2, ![128, 512]⟩) (p : Fin 128) (q : Fin 512) :
    addf (addf (matmul D none A (shapeCast ⟨2, ![2048, 512]⟩ Wb h1) (constant (F := Ideal) ⟨2, ![128, 512]⟩ .f32 0x00000000#32))
          (matmul D none B (shapeCast ⟨2, ![2048, 512]⟩ Vb h1) (constant (F := Ideal) ⟨2, ![128, 512]⟩ .f32 0x00000000#32)))
        (broadcastTo ⟨2, ![128, 512]⟩ (shapeCast ⟨2, ![1, 512]⟩ (shapeCast ⟨1, ![512]⟩ bb h2) h3) h4) (ix2 p q)
      = (∑ l : Fin 2048, A (ix2 p l) * Wb (ix3 (0 : Fin 1) l q) + ∑ l : Fin 2048, B (ix2 p l) * Vb (ix3 (0 : Fin 1) l q))
          + bb (ix2 (0 : Fin 1) q) := by
  subst hD
  rw [addf_apply, addf_apply, broadcastTo_1b_ab_apply, shapeCast_a_1a_apply, shapeCast_1a_a_apply]
  refine congrArg₂ (· + ·) (congrArg₂ (· + ·) ?_ ?_) rfl
  · refine (Cert.LibPlainDot.matmul_zero_apply none A _ p q).trans (Finset.sum_congr rfl fun l _ => ?_)
    rw [shapeCast_1ab_ab_apply]
  · refine (Cert.LibPlainDot.matmul_zero_apply none B _ p q).trans (Finset.sum_congr rfl fun l _ => ?_)
    rw [shapeCast_1ab_ab_apply]

end Cert.BlockGate

end
-- ==== Proof.BlockCell.lean ====
/-
  What one grid point's body leaves in its two output blocks, entry by entry.

  The body reads 128 rows of x and h, the four gates' [2048, 512] slabs of the transposed weights (slab g of the
  [4, 2048, 512] block), the four [512] bias rows, and the [128, 512] block of the old cell state, and stores
      c'(p, q) = σ(a_0) · c(p, q) + σ(a_1) · tanh(a_3)     and     h'(p, q) = σ(a_2) · tanh(c'(p, q)),
  where a_g(p, q) = (Σ_l x[p, l] · Wt[g, l, q] + Σ_l h[p, l] · Vt[g, l, q]) + bias[g, q].
-/
import proofs.«115387_j12618613916356_2_alg».proof.Proof.Gen.KernelIdeal.Frame
import proofs.«115387_j12618613916356_2_alg».proof.Proof.BlockGate

noncomputable section

open scoped BigOperators

namespace Cert.BlockCell

open Cert.KernelIdeal Cert.KernelIdeal.Gen Idealize.ShloMosaic Idealize.ShloMosaic.ValueIdx

/-- Gate `g`'s pre-activation for the block at entry `(p, q)`, from the blocks the point holds. -/
def gateBlk (x0 x1 : Vec Ideal S128x2048 .bf16) (x2 x3 : Vec Ideal S4x2048x512 .bf16) (x4 : Vec Ideal S4x512 .f32)
    (g : Fin 4) (p : Fin 128) (q : Fin 512) : EReal :=
  (∑ l : Fin 2048, x0 (ix2 p l) * x2 (ix3 g l q) + ∑ l : Fin 2048, x1 (ix2 p l) * x3 (ix3 g l q)) + x4 (ix2 g q)

/-- The new cell state for the block at entry `(p, q)`. -/
def cellBlk (x0 x1 : Vec Ideal S128x2048 .bf16) (x2 x3 : Vec Ideal S4x2048x512 .bf16) (x4 : Vec Ideal S4x512 .f32)
    (x5 : Vec Ideal S128x512 .f32) (p : Fin 128) (q : Fin 512) : EReal :=
  Ideal.logistic (gateBlk x0 x1 x2 x3 x4 0 p q) * x5 (ix2 p q)
    + Ideal.logistic (gateBlk x0 x1 x2 x3 x4 1 p q) * Ideal.tanh (gateBlk x0 x1 x2 x3 x4 3 p q)

/-- The new hidden state for the block at entry `(p, q)`. -/
def hiddenBlk (x0 x1 : Vec Ideal S128x2048 .bf16) (x2 x3 : Vec Ideal S4x2048x512 .bf16) (x4 : Vec Ideal S4x512 .f32)
    (x5 : Vec Ideal S128x512 .f32) (p : Fin 128) (q : Fin 512) : EReal :=
  Ideal.logistic (gateBlk x0 x1 x2 x3 x4 2 p q) * Ideal.tanh (cellBlk x0 x1 x2 x3 x4 x5 p q)

/-- The body's products are plain [128, 2048] by [2048, 512] ones. -/
theorem dot_plain : dot_S128x2048_S2048x512_S128x512_1_0_0_1_n_n = DotDims.plain 128 2048 512 := rfl

theorem hz2 : (![0, 0] : Fin 2 → Nat) = fun _ => 0 := funext fun a => by fin_cases a <;> rfl

/-! ## The loads: whole blocks, slab g of a [4, 2048, 512] block, row g of a [4, 512] block -/

/-- The rows are loaded whole (and the cast to their own shape changes nothing). -/
theorem rows_x (x : Vec Ideal S128x2048 .bf16) : k0_pay3 (View.ld x r0_0) = x :=
  (shapeCast_self _ _).trans (View.ld_unit_zero hz2 _ x)
theorem rows_h (x : Vec Ideal S128x2048 .bf16) : k0_pay4 (View.ld x r0_0) = x :=
  (shapeCast_self _ _).trans (View.ld_unit_zero hz2 _ x)
theorem ld_rows (x : Vec Ideal S128x2048 .bf16) : View.ld x r0_0 = x := View.ld_unit_zero hz2 _ x
/-- The old cell state's block is loaded whole. -/
theorem ld_blk (x : Vec Ideal S128x512 .f32) : View.ld x r0_1 = x := View.ld_unit_zero hz2 _ x

theorem slab0 (x : Vec Ideal S4x2048x512 .bf16) (l : Fin 2048) (q : Fin 512) : View.ld x r0_2 (ix3 (0 : Fin 1) l q) = x (ix3 (0 : Fin 4) l q) :=
  congrArg x (funext fun a => Fin.ext (by match a with | ⟨0, _⟩ => rfl | ⟨1, _⟩ => (show 0 + 1 * l.val = l.val; omega) | ⟨2, _⟩ => (show 0 + 1 * q.val = q.val; omega)))
theorem slab1 (x : Vec Ideal S4x2048x512 .bf16) (l : Fin 2048) (q : Fin 512) : View.ld x r0_4 (ix3 (0 : Fin 1) l q) = x (ix3 (1 : Fin 4) l q) :=
  congrArg x (funext fun a => Fin.ext (by match a with | ⟨0, _⟩ => rfl | ⟨1, _⟩ => (show 0 + 1 * l.val = l.val; omega) | ⟨2, _⟩ => (show 0 + 1 * q.val = q.val; omega)))
theorem slab2 (x : Vec Ideal S4x2048x512 .bf16) (l : Fin 2048) (q : Fin 512) : View.ld x r0_6 (ix3 (0 : Fin 1) l q) = x (ix3 (2 : Fin 4) l q) :=
  congrArg x (funext fun a => Fin.ext (by match a with | ⟨0, _⟩ => rfl | ⟨1, _⟩ => (show 0 + 1 * l.val = l.val; omega) | ⟨2, _⟩ => (show 0 + 1 * q.val = q.val; omega)))
theorem slab3 (x : Vec Ideal S4x2048x512 .bf16) (l : Fin 2048) (q : Fin 512) : View.ld x r0_8 (ix3 (0 : Fin 1) l q) = x (ix3 (3 : Fin 4) l q) :=
  congrArg x (funext fun a => Fin.ext (by match a with | ⟨0, _⟩ => rfl | ⟨1, _⟩ => (show 0 + 1 * l.val = l.val; omega) | ⟨2, _⟩ => (show 0 + 1 * q.val = q.val; omega)))

theorem row0 (x : Vec Ideal S4x512 .f32) (q : Fin 512) : View.ld x r0_3 (ix2 (0 : Fin 1) q) = x (ix2 (0 : Fin 4) q) :=
  congrArg x (funext fun a => Fin.ext (by match a with | ⟨0, _⟩ => rfl | ⟨1, _⟩ => (show 0 + 1 * q.val = q.val; omega)))
theorem row1 (x : Vec Ideal S4x512 .f32) (q : Fin 512) : View.ld x r0_5 (ix2 (0 : Fin 1) q) = x (ix2 (1 : Fin 4) q) :=
  congrArg x (funext fun a => Fin.ext (by match a with | ⟨0, _⟩ => rfl | ⟨1, _⟩ => (show 0 + 1 * q.val = q.val; omega)))
theorem row2 (x : Vec Ideal S4x512 .f32) (q : Fin 512) : View.ld x r0_7 (ix2 (0 : Fin 1) q) = x (ix2 (2 : Fin 4) q) :=
  congrArg x (funext fun a => Fin.ext (by match a with | ⟨0, _⟩ => rfl | ⟨1, _⟩ => (show 0 + 1 * q.val = q.val; omega)))
theorem row3 (x : Vec Ideal S4x512 .f32) (q : Fin 512) : View.ld x r0_9 (ix2 (0 : Fin 1) q) = x (ix2 (3 : Fin 4) q) :=
  congrArg x (funext fun a => Fin.ext (by match a with | ⟨0, _⟩ => rfl | ⟨1, _⟩ => (show 0 + 1 * q.val = q.val; omega)))

/-- A gate written over a loaded slab pair and bias row is the block's gate, given where the loads read. -/
theorem gate_of_loads (x0 x1 : Vec Ideal S128x2048 .bf16) (x2 x3 : Vec Ideal S4x2048x512 .bf16) (x4 : Vec Ideal S4x512 .f32)
    (w v : Vec Ideal S1x2048x512 .bf16) (b : Vec Ideal S1x512 .f32) (g : Fin 4) (p : Fin 128) (q : Fin 512)
    (hw : ∀ l : Fin 2048, w (ix3 (0 : Fin 1) l q) = x2 (ix3 g l q)) (hv : ∀ l : Fin 2048, v (ix3 (0 : Fin 1) l q) = x3 (ix3 g l q))
    (hb : b (ix2 (0 : Fin 1) q) = x4 (ix2 g q)) :
    (∑ l : Fin 2048, x0 (ix2 p l) * w (ix3 (0 : Fin 1) l q) + ∑ l : Fin 2048, x1 (ix2 p l) * v (ix3 (0 : Fin 1) l q)) + b (ix2 (0 : Fin 1) q)
      = gateBlk x0 x1 x2 x3 x4 g p q := by
  unfold gateBlk
  rw [hb]
  refine congrArg (· + x4 (ix2 g q)) (congrArg₂ (· + ·) (Finset.sum_congr rfl fun l _ => ?_) (Finset.sum_congr rfl fun l _ => ?_))
  · rw [hw l]
  · rw [hv l]

/-! ## The four gates' pre-activations as the body computes them -/

/-- A gate from rows `A`, `B`, slabs `w`, `v` (as loaded, [1, 2048, 512]) and a bias row `b` (as loaded, [1, 512]). -/
theorem gate_loaded (A B : FVec Ideal S128x2048 .bf16) (w v : Vec Ideal S1x2048x512 .bf16) (b : Vec Ideal S1x512 .f32) (p : Fin 128) (q : Fin 512) :
    addf (addf (matmul dot_S128x2048_S2048x512_S128x512_1_0_0_1_n_n none A (shapeCast S2048x512 w shapeCasts_S1x2048x512_S2048x512 : FVec Ideal S2048x512 .bf16) (constant (F := Ideal) S128x512 .f32 0x00000000#32))
          (matmul dot_S128x2048_S2048x512_S128x512_1_0_0_1_n_n none B (shapeCast S2048x512 v shapeCasts_S1x2048x512_S2048x512 : FVec Ideal S2048x512 .bf16) (constant (F := Ideal) S128x512 .f32 0x00000000#32)))
        (broadcastTo S128x512 (shapeCast S1x512 (shapeCast S512 b shapeCasts_S1x512_S512 : FVec Ideal S512 .f32) shapeCasts_S512_S1x512 : FVec Ideal S1x512 .f32) broadcasts_S1x512_S128x512 : FVec Ideal S128x512 .f32) (ix2 p q)
      = (∑ l : Fin 2048, A (ix2 p l) * w (ix3 (0 : Fin 1) l q) + ∑ l : Fin 2048, B (ix2 p l) * v (ix3 (0 : Fin 1) l q)) + b (ix2 (0 : Fin 1) q) :=
  Cert.BlockGate.gate_apply _ dot_plain A B w v b _ _ _ _ p q

theorem pay5_apply (v0 v2 : Vec Ideal S128x2048 .bf16) (v5 v7 : Vec Ideal S1x2048x512 .bf16) (v9 : Vec Ideal S1x512 .f32) (p : Fin 128) (q : Fin 512) :
    k0_pay5 v0 v2 v5 v7 v9 (ix2 p q)
      = (∑ l : Fin 2048, k0_pay3 v0 (ix2 p l) * v5 (ix3 (0 : Fin 1) l q) + ∑ l : Fin 2048, k0_pay4 v2 (ix2 p l) * v7 (ix3 (0 : Fin 1) l q)) + v9 (ix2 (0 : Fin 1) q) :=
  gate_loaded (k0_pay3 v0) (k0_pay4 v2) v5 v7 v9 p q

theorem pay6_apply (v0 v2 : Vec Ideal S128x2048 .bf16) (v17 v19 : Vec Ideal S1x2048x512 .bf16) (v21 : Vec Ideal S1x512 .f32) (p : Fin 128) (q : Fin 512) :
    k0_pay6 v0 v2 v17 v19 v21 (ix2 p q)
      = (∑ l : Fin 2048, k0_pay3 v0 (ix2 p l) * v17 (ix3 (0 : Fin 1) l q) + ∑ l : Fin 2048, k0_pay4 v2 (ix2 p l) * v19 (ix3 (0 : Fin 1) l q)) + v21 (ix2 (0 : Fin 1) q) :=
  gate_loaded (k0_pay3 v0) (k0_pay4 v2) v17 v19 v21 p q

/-- The stored cell-state value at `(p, q)`, from the loaded rows, the two gates already formed and the candidate's loads. -/
theorem pay1_apply (v1 v3 : FVec Ideal S128x2048 .bf16) (v4 : Vec Ideal S128x512 .f32) (v16 v28 : FVec Ideal S128x512 .f32)
    (v41 v43 : Vec Ideal S1x2048x512 .bf16) (v45 : Vec Ideal S1x512 .f32) (p : Fin 128) (q : Fin 512) :
    k0_pay1 v1 v3 v4 v16 v28 v41 v43 v45 (ix2 p q)
      = Ideal.logistic (v16 (ix2 p q)) * v4 (ix2 p q)
        + Ideal.logistic (v28 (ix2 p q)) * Ideal.tanh ((∑ l : Fin 2048, v1 (ix2 p l) * v41 (ix3 (0 : Fin 1) l q) + ∑ l : Fin 2048, v3 (ix2 p l) * v43 (ix3 (0 : Fin 1) l q)) + v45 (ix2 (0 : Fin 1) q)) :=
  congrArg (fun z => Ideal.logistic (v16 (ix2 p q)) * v4 (ix2 p q) + Ideal.logistic (v28 (ix2 p q)) * Ideal.tanh z)
    (gate_loaded v1 v3 v41 v43 v45 p q)

/-- The stored hidden-state value at `(p, q)`. -/
theorem pay2_apply (v1 v3 : FVec Ideal S128x2048 .bf16) (v4 : Vec Ideal S128x512 .f32) (v16 v28 : FVec Ideal S128x512 .f32)
    (v29 v31 : Vec Ideal S1x2048x512 .bf16) (v33 : Vec Ideal S1x512 .f32) (v41 v43 : Vec Ideal S1x2048x512 .bf16) (v45 : Vec Ideal S1x512 .f32) (p : Fin 128) (q : Fin 512) :
    k0_pay2 v1 v3 v4 v16 v28 v29 v31 v33 v41 v43 v45 (ix2 p q)
      = Ideal.logistic ((∑ l : Fin 2048, v1 (ix2 p l) * v29 (ix3 (0 : Fin 1) l q) + ∑ l : Fin 2048, v3 (ix2 p l) * v31 (ix3 (0 : Fin 1) l q)) + v33 (ix2 (0 : Fin 1) q))
        * Ideal.tanh (k0_pay1 v1 v3 v4 v16 v28 v41 v43 v45 (ix2 p q)) :=
  congrArg (fun z => Ideal.logistic z * Ideal.tanh (k0_pay1 v1 v3 v4 v16 v28 v41 v43 v45 (ix2 p q)))
    (gate_loaded v1 v3 v29 v31 v33 p q)

/-! ## The two output blocks -/

/-- The cell-state block the body leaves, at `(p, q)`. -/
theorem out_cell_apply (x0 x1 : Vec Ideal S128x2048 .bf16) (x2 x3 : Vec Ideal S4x2048x512 .bf16) (x4 : Vec Ideal S4x512 .f32)
    (x5 : Vec Ideal S128x512 .f32) (p : Fin 128) (q : Fin 512) :
    out0_7 x0 x1 x2 x3 x4 x5 (ix2 p q) = cellBlk x0 x1 x2 x3 x4 x5 p q := by
  unfold out0_7
  rw [View.canon_unit_zero hz2, pay1_apply, pay5_apply, pay6_apply, rows_x x0, rows_h x1, ld_blk x5]
  unfold cellBlk
  rw [← gate_of_loads x0 x1 x2 x3 x4 (View.ld x2 r0_2) (View.ld x3 r0_2) (View.ld x4 r0_3) 0 p q (fun l => slab0 x2 l q) (fun l => slab0 x3 l q) (row0 x4 q),
    ← gate_of_loads x0 x1 x2 x3 x4 (View.ld x2 r0_4) (View.ld x3 r0_4) (View.ld x4 r0_5) 1 p q (fun l => slab1 x2 l q) (fun l => slab1 x3 l q) (row1 x4 q),
    ← gate_of_loads x0 x1 x2 x3 x4 (View.ld x2 r0_8) (View.ld x3 r0_8) (View.ld x4 r0_9) 3 p q (fun l => slab3 x2 l q) (fun l => slab3 x3 l q) (row3 x4 q)]

/-- The hidden-state block the body leaves, at `(p, q)`. -/
theorem out_hidden_apply (x0 x1 : Vec Ideal S128x2048 .bf16) (x2 x3 : Vec Ideal S4x2048x512 .bf16) (x4 : Vec Ideal S4x512 .f32)
    (x5 : Vec Ideal S128x512 .f32) (p : Fin 128) (q : Fin 512) :
    out0_6 x0 x1 x2 x3 x4 x5 (ix2 p q) = hiddenBlk x0 x1 x2 x3 x4 x5 p q := by
  unfold out0_6
  rw [View.canon_unit_zero hz2, pay2_apply, pay1_apply, pay5_apply, pay6_apply, rows_x x0, rows_h x1, ld_blk x5]
  unfold hiddenBlk cellBlk
  rw [← gate_of_loads x0 x1 x2 x3 x4 (View.ld x2 r0_2) (View.ld x3 r0_2) (View.ld x4 r0_3) 0 p q (fun l => slab0 x2 l q) (fun l => slab0 x3 l q) (row0 x4 q),
    ← gate_of_loads x0 x1 x2 x3 x4 (View.ld x2 r0_4) (View.ld x3 r0_4) (View.ld x4 r0_5) 1 p q (fun l => slab1 x2 l q) (fun l => slab1 x3 l q) (row1 x4 q),
    ← gate_of_loads x0 x1 x2 x3 x4 (View.ld x2 r0_6) (View.ld x3 r0_6) (View.ld x4 r0_7) 2 p q (fun l => slab2 x2 l q) (fun l => slab2 x3 l q) (row2 x4 q),
    ← gate_of_loads x0 x1 x2 x3 x4 (View.ld x2 r0_8) (View.ld x3 r0_8) (View.ld x4 r0_9) 3 p q (fun l => slab3 x2 l q) (fun l => slab3 x3 l q) (row3 x4 q)]

end Cert.BlockCell

end
-- ==== Proof.CellSpec.lean ====
/-
  One step of an LSTM cell as functions of its argument arrays, entry by entry, on the extended reals.

  For a batch row r and a hidden unit n, gate g (0 forget, 1 input, 2 output, 3 candidate) has the pre-activation
      a_g(r, n) = (Σ_k x[r, k] · W[g, n, k] + Σ_k h[r, k] · V[g, n, k]) + ((bW[g, n] + bV[g, n]) + b[g, n]),
  the new cell state is      c'(r, n) = σ(a_0) · c[r, n] + σ(a_1) · tanh(a_3),
  and the new hidden state   h'(r, n) = σ(a_2) · tanh(c'(r, n)),
  where σ(a) = 1 / (1 + e^(-a)). The grouping of the sums is the one both programs use, so no law of
  arithmetic beyond it is needed to compare them.
-/
import Idealize.ShloMosaic.Lib.ValueIdx
import Idealize.ShloMosaic.PureOps.Ideal.Laws

noncomputable section

open scoped BigOperators

namespace Cert.Cell

open Idealize.ShloMosaic Idealize.ShloMosaic.ValueIdx

/-- The activations' shape [4096, 2048]: batch rows by features (or hidden units). -/
abbrev SAct : Shape := ⟨2, ![4096, 2048]⟩
/-- The stacked weights' shape [4, 2048, 2048]: gate, hidden unit, input feature. -/
abbrev SWts : Shape := ⟨3, ![4, 2048, 2048]⟩
/-- The stacked biases' shape [4, 2048]: gate, hidden unit. -/
abbrev SBias : Shape := ⟨2, ![4, 2048]⟩

/-- The pre-activation of gate `g` at batch row `r` and hidden unit `n`. -/
def gate (X H : SAct.Idx → EReal) (W : SWts.Idx → EReal) (bW : SBias.Idx → EReal) (V : SWts.Idx → EReal)
    (bV b : SBias.Idx → EReal) (g : Fin 4) (r : Fin 4096) (n : Fin 2048) : EReal :=
  (∑ k : Fin 2048, X (ix2 r k) * W (ix3 g n k) + ∑ k : Fin 2048, H (ix2 r k) * V (ix3 g n k))
    + ((bW (ix2 g n) + bV (ix2 g n)) + b (ix2 g n))

/-- The new cell state at `(r, n)`: the forget gate times the old state plus the input gate times the candidate. -/
def cellNext (X H C : SAct.Idx → EReal) (W : SWts.Idx → EReal) (bW : SBias.Idx → EReal) (V : SWts.Idx → EReal)
    (bV b : SBias.Idx → EReal) (r : Fin 4096) (n : Fin 2048) : EReal :=
  Ideal.logistic (gate X H W bW V bV b 0 r n) * C (ix2 r n)
    + Ideal.logistic (gate X H W bW V bV b 1 r n) * Ideal.tanh (gate X H W bW V bV b 3 r n)

/-- The new hidden state at `(r, n)`: the output gate times tanh of the new cell state. -/
def hiddenNext (X H C : SAct.Idx → EReal) (W : SWts.Idx → EReal) (bW : SBias.Idx → EReal) (V : SWts.Idx → EReal)
    (bV b : SBias.Idx → EReal) (r : Fin 4096) (n : Fin 2048) : EReal :=
  Ideal.logistic (gate X H W bW V bV b 2 r n) * Ideal.tanh (cellNext X H C W bW V bV b r n)

/-- The new cell state as an array. -/
def cellArr (X H C : SAct.Idx → EReal) (W : SWts.Idx → EReal) (bW : SBias.Idx → EReal) (V : SWts.Idx → EReal)
    (bV b : SBias.Idx → EReal) : SAct.Idx → EReal := fun i => cellNext X H C W bW V bV b (i 0) (i 1)

/-- The new hidden state as an array. -/
def hiddenArr (X H C : SAct.Idx → EReal) (W : SWts.Idx → EReal) (bW : SBias.Idx → EReal) (V : SWts.Idx → EReal)
    (bV b : SBias.Idx → EReal) : SAct.Idx → EReal := fun i => hiddenNext X H C W bW V bV b (i 0) (i 1)

end Cert.Cell

end
-- ==== Proof.BlockIsCell.lean ====
/-
  A block whose entries are the arrays' entries computes the cell step's entries.

  Take a batch row r and a hidden unit n, and a block position (p, q) such that, for every contraction position l and
  gate g: the block's rows of x and h at (p, l) are x[r, l] and h[r, l]; the transposed-weight slabs at (g, l, q) are
  W[g, n, l] and V[g, n, l]; the bias row at (g, q) is (bW[g, n] + bV[g, n]) + b[g, n]; and the old cell state at
  (p, q) is c[r, n]. Then the block's gates, new cell state and new hidden state at (p, q) are the cell step's at (r, n):
  the two sides are the same sums and products of the same numbers.
-/
import proofs.«115387_j12618613916356_2_alg».proof.Proof.BlockCell
import proofs.«115387_j12618613916356_2_alg».proof.Proof.CellSpec

noncomputable section

open scoped BigOperators

namespace Cert.BlockIsCell

open Cert.KernelIdeal Idealize.ShloMosaic Idealize.ShloMosaic.ValueIdx Cert.Cell Cert.BlockCell

variable (X H C : SAct.Idx → EReal) (W : SWts.Idx → EReal) (bW : SBias.Idx → EReal) (V : SWts.Idx → EReal) (bV b : SBias.Idx → EReal)
  (x0 x1 : Vec Ideal S128x2048 .bf16) (x2 x3 : Vec Ideal S4x2048x512 .bf16) (x4 : Vec Ideal S4x512 .f32) (x5 : Vec Ideal S128x512 .f32)
  (p : Fin 128) (q : Fin 512) (r : Fin 4096) (n : Fin 2048)

theorem gate_eq (g : Fin 4)
    (h0 : ∀ l : Fin 2048, x0 (ix2 p l) = X (ix2 r l)) (h1 : ∀ l : Fin 2048, x1 (ix2 p l) = H (ix2 r l))
    (h2 : ∀ (g : Fin 4) (l : Fin 2048), x2 (ix3 g l q) = W (ix3 g n l)) (h3 : ∀ (g : Fin 4) (l : Fin 2048), x3 (ix3 g l q) = V (ix3 g n l))
    (h4 : ∀ g : Fin 4, x4 (ix2 g q) = (bW (ix2 g n) + bV (ix2 g n)) + b (ix2 g n)) :
    gateBlk x0 x1 x2 x3 x4 g p q = gate X H W bW V bV b g r n := by
  unfold gateBlk gate
  rw [h4 g]
  refine congrArg (· + ((bW (ix2 g n) + bV (ix2 g n)) + b (ix2 g n)))
    (congrArg₂ (· + ·) (Finset.sum_congr rfl fun l _ => ?_) (Finset.sum_congr rfl fun l _ => ?_))
  · rw [h0 l, h2 g l]
  · rw [h1 l, h3 g l]

theorem cell_eq
    (h0 : ∀ l : Fin 2048, x0 (ix2 p l) = X (ix2 r l)) (h1 : ∀ l : Fin 2048, x1 (ix2 p l) = H (ix2 r l))
    (h2 : ∀ (g : Fin 4) (l : Fin 2048), x2 (ix3 g l q) = W (ix3 g n l)) (h3 : ∀ (g : Fin 4) (l : Fin 2048), x3 (ix3 g l q) = V (ix3 g n l))
    (h4 : ∀ g : Fin 4, x4 (ix2 g q) = (bW (ix2 g n) + bV (ix2 g n)) + b (ix2 g n)) (h5 : x5 (ix2 p q) = C (ix2 r n)) :
    cellBlk x0 x1 x2 x3 x4 x5 p q = cellNext X H C W bW V bV b r n := by
  unfold cellBlk cellNext
  rw [gate_eq X H W bW V bV b x0 x1 x2 x3 x4 p q r n 0 h0 h1 h2 h3 h4, gate_eq X H W bW V bV b x0 x1 x2 x3 x4 p q r n 1 h0 h1 h2 h3 h4,
    gate_eq X H W bW V bV b x0 x1 x2 x3 x4 p q r n 3 h0 h1 h2 h3 h4, h5]

theorem hidden_eq
    (h0 : ∀ l : Fin 2048, x0 (ix2 p l) = X (ix2 r l)) (h1 : ∀ l : Fin 2048, x1 (ix2 p l) = H (ix2 r l))
    (h2 : ∀ (g : Fin 4) (l : Fin 2048), x2 (ix3 g l q) = W (ix3 g n l)) (h3 : ∀ (g : Fin 4) (l : Fin 2048), x3 (ix3 g l q) = V (ix3 g n l))
    (h4 : ∀ g : Fin 4, x4 (ix2 g q) = (bW (ix2 g n) + bV (ix2 g n)) + b (ix2 g n)) (h5 : x5 (ix2 p q) = C (ix2 r n)) :
    hiddenBlk x0 x1 x2 x3 x4 x5 p q = hiddenNext X H C W bW V bV b r n := by
  unfold hiddenBlk hiddenNext
  rw [gate_eq X H W bW V bV b x0 x1 x2 x3 x4 p q r n 2 h0 h1 h2 h3 h4, cell_eq X H C W bW V bV b x0 x1 x2 x3 x4 x5 p q r n h0 h1 h2 h3 h4 h5]

end Cert.BlockIsCell

end
-- ==== Proof.CellArray.lean ====
/-
  From blocks to arrays: after the run the two result arrays hold the cell step of the argument arrays.

  The grid has 4 × 32 points; point t has a hidden-unit tile j (512 wide) and a batch tile i (128 rows), and writes
  block (i, j) of each result. At that point the staged arrays are: x and h rounded to the narrower format (the
  identity on extended reals), read in row block i; the weights with their last two axes exchanged, read in the
  slab of columns j; the three biases added, read in columns j; the old cell state in block (i, j). So entry (p, q)
  of the written block is the cell step at row 128·i + p and hidden unit 512·j + q, and the 128 blocks tile the
  [4096, 2048] arrays.
-/
import proofs.«115387_j12618613916356_2_alg».proof.Proof.Gen.KernelIdeal.Value
import proofs.«115387_j12618613916356_2_alg».proof.Proof.BlockIsCell
import Idealize.ShloMosaic.Lib.ValueLayout
import Idealize.ShloMosaic.Lib.StableHlo.Run

noncomputable section

open scoped BigOperators

namespace Cert.CellArray

open Cert.KernelIdeal Cert.KernelIdeal.Gen Idealize.ShloMosaic Idealize.ShloMosaic.TcCoe Idealize.SL.Sem
open Idealize.ShloMosaic.ValueIdx Cert.Cell Cert.BlockCell
open Idealize.ShloMosaic.Pipeline (Dat)

variable (m : (ℓ : Loc nD τ sig) → Buf (Elt Ideal) ℓ) (ρ : Dev nD → PrngReg)

/-! ## The staged arrays as the region finds them -/

/-- The staged x is x (the change of format is the identity on extended reals). -/
theorem staged_x (c : Dev nD) : (V m c main_v2 : S4096x2048.Idx → EReal) = m ((c : Thread nD τ).loc main_arg0) := by
  dsimp only [V, hostOps0]; after_results; rfl

/-- The staged h is h. -/
theorem staged_h (c : Dev nD) : (V m c main_v3 : S4096x2048.Idx → EReal) = m ((c : Thread nD τ).loc main_arg1) := by
  dsimp only [V, hostOps0]; after_results; rfl

/-- The staged input weights at (g, k, n) are W at (g, n, k). -/
theorem staged_w (c : Dev nD) (g : Fin 4) (k n : Fin 2048) :
    (V m c main_v5 : S4x2048x2048.Idx → EReal) (ix3 g k n) = (m ((c : Thread nD τ).loc main_arg3) : S4x2048x2048.Idx → EReal) (ix3 g n k) := by
  have e : (V m c main_v5 : S4x2048x2048.Idx → EReal)
      = transpose S4x2048x2048 [0, 2, 1] (m ((c : Thread nD τ).loc main_arg3) : S4x2048x2048.Idx → EReal) transposes_S4x2048x2048_S4x2048x2048_0_2_1 := by
    dsimp only [V, hostOps0]; after_results; rfl
  rw [e]
  exact transpose_ix3_021_apply _ _ g k n

/-- The staged hidden weights at (g, k, n) are V at (g, n, k). -/
theorem staged_v (c : Dev nD) (g : Fin 4) (k n : Fin 2048) :
    (V m c main_v7 : S4x2048x2048.Idx → EReal) (ix3 g k n) = (m ((c : Thread nD τ).loc main_arg5) : S4x2048x2048.Idx → EReal) (ix3 g n k) := by
  have e : (V m c main_v7 : S4x2048x2048.Idx → EReal)
      = transpose S4x2048x2048 [0, 2, 1] (m ((c : Thread nD τ).loc main_arg5) : S4x2048x2048.Idx → EReal) transposes_S4x2048x2048_S4x2048x2048_0_2_1 := by
    dsimp only [V, hostOps0]; after_results; rfl
  rw [e]
  exact transpose_ix3_021_apply _ _ g k n

/-- Three bias arrays added at an index, the first two first. -/
def biasAt (bW bV b : SBias.Idx → EReal) (i : SBias.Idx) : EReal := (bW i + bV i) + b i

/-- The staged bias is the three biases added, the first two first. -/
theorem staged_bias (c : Dev nD) (i : S4x2048.Idx) :
    (V m c main_v1 : S4x2048.Idx → EReal) i
      = biasAt (m ((c : Thread nD τ).loc main_arg4)) (m ((c : Thread nD τ).loc main_arg6)) (m ((c : Thread nD τ).loc main_arg7)) i := by
  have e : @Eq (FVec Ideal S4x2048 .f32) (V m c main_v1)
      (addf (addf (m ((c : Thread nD τ).loc main_arg4)) (m ((c : Thread nD τ).loc main_arg6))) (m ((c : Thread nD τ).loc main_arg7))) := by
    dsimp only [V, hostOps0]; after_results
  rw [e]; rfl

/-! ## The printed index maps, decided over the grid -/

/-- Each input window's block index in terms of the output's (i, j): rows move with i, weight and bias columns with j. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 3) = 0 ∧ win0_2.index t (1 : Fin 3) = 0 ∧ win0_2.index t (2 : Fin 3) = win0_6.index t (1 : Fin 2)
    ∧ win0_3.index t (0 : Fin 3) = 0 ∧ win0_3.index t (1 : Fin 3) = 0 ∧ win0_3.index t (2 : Fin 3) = win0_6.index t (1 : Fin 2)
    ∧ win0_4.index t (0 : Fin 2) = 0 ∧ win0_4.index t (1 : Fin 2) = win0_6.index t (1 : Fin 2)
    ∧ win0_5.index t (0 : Fin 2) = win0_6.index t (0 : Fin 2) ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_6.index t (0 : Fin 2) < 32 ∧ win0_6.index t (1 : Fin 2) < 4 :=
  (by decide +kernel : ∀ t : Fin grid0.N, _)

/-- Every block (i, j) of the result is some point's. -/
theorem idx_onto : ∀ (i : Fin 32) (j : Fin 4), ∃ t : Fin cfg0.N, win0_6.index t = ![i.val, j.val] :=
  (by decide +kernel : ∀ (i : Fin 32) (j : Fin 4), ∃ t : Fin grid0.N, win0_6.index t = ![i.val, j.val])

/-! ## What a point writes back -/

/-- The entries of point `t`'s input blocks at the positions entry `(p, q)` of the output depends on, in terms of the
    arrays at the row and the hidden unit where `(p, q)` of block `t` sits. -/
theorem block_entries (c : Dev nD) (t : Fin cfg0.N) (p : Fin 128) (q : Fin 512) (r : Fin 4096) (n : Fin 2048)
    (hr : r.val = win0_6.index t (0 : Fin 2) * 128 + 1 * p.val) (hn : n.val = win0_6.index t (1 : Fin 2) * 512 + 1 * q.val) :
    (∀ l : Fin 2048, iblk m c 0 t (ix2 p l) = (m ((c : Thread nD τ).loc main_arg0) : S4096x2048.Idx → EReal) (ix2 r l))
    ∧ (∀ l : Fin 2048, iblk m c 1 t (ix2 p l) = (m ((c : Thread nD τ).loc main_arg1) : S4096x2048.Idx → EReal) (ix2 r l))
    ∧ (∀ (g : Fin 4) (l : Fin 2048), iblk m c 2 t (ix3 g l q) = (m ((c : Thread nD τ).loc main_arg3) : S4x2048x2048.Idx → EReal) (ix3 g n l))
    ∧ (∀ (g : Fin 4) (l : Fin 2048), iblk m c 3 t (ix3 g l q) = (m ((c : Thread nD τ).loc main_arg5) : S4x2048x2048.Idx → EReal) (ix3 g n l))
    ∧ (∀ g : Fin 4, iblk m c 4 t (ix2 g q)
        = biasAt (m ((c : Thread nD τ).loc main_arg4)) (m ((c : Thread nD τ).loc main_arg6)) (m ((c : Thread nD τ).loc main_arg7)) (ix2 g n))
    ∧ iblk m c 5 t (ix2 p q) = (m ((c : Thread nD τ).loc main_arg2) : S4096x2048.Idx → EReal) (ix2 r n) := by
  obtain ⟨a0, a1, b0, b1, w0, w1, w2, v0, v1, v2, s0, s1, c0, c1, -, -, -, -⟩ := idx_facts t
  have hp := p.isLt
  have hq := q.isLt
  refine ⟨fun l => ?_, fun l => ?_, fun g l => ?_, fun g l => ?_, fun g => ?_, ?_⟩
  · show (V m c main_v2 : S4096x2048.Idx → EReal) (((cfg0.win 0).blk t).view.emb (ix2 p l)) = _
    rw [staged_x]
    refine congrArg _ (funext fun a => Fin.ext ?_)
    match a with
    | ⟨0, _⟩ => show win0_0.index t (0 : Fin 2) * 128 + 1 * p.val = r.val; omega
    | ⟨1, _⟩ => show win0_0.index t (1 : Fin 2) * 2048 + 1 * l.val = l.val; omega
  · show (V m c main_v3 : S4096x2048.Idx → EReal) (((cfg0.win 1).blk t).view.emb (ix2 p l)) = _
    rw [staged_h]
    refine congrArg _ (funext fun a => Fin.ext ?_)
    match a with
    | ⟨0, _⟩ => show win0_1.index t (0 : Fin 2) * 128 + 1 * p.val = r.val; omega
    | ⟨1, _⟩ => show win0_1.index t (1 : Fin 2) * 2048 + 1 * l.val = l.val; omega
  · show (V m c main_v5 : S4x2048x2048.Idx → EReal) (((cfg0.win 2).blk t).view.emb (ix3 g l q)) = _
    rw [← staged_w m c g l n]
    refine congrArg _ (funext fun a => Fin.ext ?_)
    match a with
    | ⟨0, _⟩ => show win0_2.index t (0 : Fin 3) * 4 + 1 * g.val = g.val; omega
    | ⟨1, _⟩ => show win0_2.index t (1 : Fin 3) * 2048 + 1 * l.val = l.val; omega
    | ⟨2, _⟩ => show win0_2.index t (2 : Fin 3) * 512 + 1 * q.val = n.val; omega
  · show (V m c main_v7 : S4x2048x2048.Idx → EReal) (((cfg0.win 3).blk t).view.emb (ix3 g l q)) = _
    rw [← staged_v m c g l n]
    refine congrArg _ (funext fun a => Fin.ext ?_)
    match a with
    | ⟨0, _⟩ => show win0_3.index t (0 : Fin 3) * 4 + 1 * g.val = g.val; omega
    | ⟨1, _⟩ => show win0_3.index t (1 : Fin 3) * 2048 + 1 * l.val = l.val; omega
    | ⟨2, _⟩ => show win0_3.index t (2 : Fin 3) * 512 + 1 * q.val = n.val; omega
  · show (V m c main_v1 : S4x2048.Idx → EReal) (((cfg0.win 4).blk t).view.emb (ix2 g q)) = _
    rw [← staged_bias m c (ix2 g n)]
    refine congrArg _ (funext fun a => Fin.ext ?_)
    match a with
    | ⟨0, _⟩ => show win0_4.index t (0 : Fin 2) * 4 + 1 * g.val = g.val; omega
    | ⟨1, _⟩ => show win0_4.index t (1 : Fin 2) * 512 + 1 * q.val = n.val; omega
  · show (V m c main_arg2 : S4096x2048.Idx → EReal) (((cfg0.win 5).blk t).view.emb (ix2 p q)) = _
    rw [V_main_arg2]
    refine congrArg _ (funext fun a => Fin.ext ?_)
    match a with
    | ⟨0, _⟩ => show win0_5.index t (0 : Fin 2) * 128 + 1 * p.val = r.val; omega
    | ⟨1, _⟩ => show win0_5.index t (1 : Fin 2) * 512 + 1 * q.val = n.val; omega

/-- Point `t` writes back block `t` of the new hidden state. -/
theorem flushed_hidden (c : Dev nD) (t : Fin cfg0.N) :
    (dats m 0 c).flushed 6 t = ((cfg0.win 6).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed6]
  have key : ∀ y : S128x512.Idx,
      out0_6 (iblk m c 0 t) (iblk m c 1 t) (iblk m c 2 t) (iblk m c 3 t) (iblk m c 4 t) (iblk m c 5 t) y
        = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 6).blk t).view.emb y) := by
    intro y
    obtain ⟨p, q, rfl⟩ : ∃ (p : Fin 128) (q : Fin 512), y = ix2 p q := ⟨y 0, y 1, eq_ix2 y⟩
    obtain ⟨h0, h1, h2, h3, h4, h5⟩ := block_entries m c t p q
      ((((cfg0.win 6).blk t).view.emb (ix2 p q) : S4096x2048.Idx) 0) ((((cfg0.win 6).blk t).view.emb (ix2 p q) : S4096x2048.Idx) 1) rfl rfl
    refine (out_hidden_apply (iblk m c 0 t) (iblk m c 1 t) (iblk m c 2 t) (iblk m c 3 t) (iblk m c 4 t) (iblk m c 5 t) p q).trans ?_
    exact Cert.BlockIsCell.hidden_eq _ _ _ _ _ _ _ _ _ _ _ _ _ _ p q _ _ h0 h1 h2 h3 h4 h5
  funext j
  exact key j

/-- Point `t` writes back block `t` of the new cell state. -/
theorem flushed_cell (c : Dev nD) (t : Fin cfg0.N) :
    (dats m 0 c).flushed 7 t = ((cfg0.win 7).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed7]
  obtain ⟨-, -, -, -, -, -, -, -, -, -, -, -, -, -, d0, d1, -, -⟩ := idx_facts t
  have key : ∀ y : S128x512.Idx,
      out0_7 (iblk m c 0 t) (iblk m c 1 t) (iblk m c 2 t) (iblk m c 3 t) (iblk m c 4 t) (iblk m c 5 t) y
        = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 7).blk t).view.emb y) := by
    intro y
    obtain ⟨p, q, rfl⟩ : ∃ (p : Fin 128) (q : Fin 512), y = ix2 p q := ⟨y 0, y 1, eq_ix2 y⟩
    obtain ⟨h0, h1, h2, h3, h4, h5⟩ := block_entries m c t p q
      ((((cfg0.win 7).blk t).view.emb (ix2 p q) : S4096x2048.Idx) 0) ((((cfg0.win 7).blk t).view.emb (ix2 p q) : S4096x2048.Idx) 1)
      (show win0_7.index t (0 : Fin 2) * 128 + 1 * p.val = win0_6.index t (0 : Fin 2) * 128 + 1 * p.val by rw [d0])
      (show win0_7.index t (1 : Fin 2) * 512 + 1 * q.val = win0_6.index t (1 : Fin 2) * 512 + 1 * q.val by rw [d1])
    refine (out_cell_apply (iblk m c 0 t) (iblk m c 1 t) (iblk m c 2 t) (iblk m c 3 t) (iblk m c 4 t) (iblk m c 5 t) p q).trans ?_
    exact Cert.BlockIsCell.cell_eq _ _ _ _ _ _ _ _ _ _ _ _ _ _ p q _ _ h0 h1 h2 h3 h4 h5
  funext j
  exact key j

/-! ## The blocks tile the arrays -/

theorem mem_blk6 (t : Fin cfg0.N) (i : S4096x2048.Idx) :
    i ∈ ((cfg0.win 6).blk t).view.set ↔ ∀ a : Fin 2, win0_6.index t a * S128x512.size a ≤ (i a).val ∧ (i a).val < win0_6.index t a * S128x512.size a + S128x512.size a := by
  show i ∈ ((View.whole main_v8_0).slice (win0_6.rect t)).set ↔ _
  rw [View.set_slice_whole, Rect.mem_set_unit]
  exact Iff.rfl

theorem mem_blk7 (t : Fin cfg0.N) (i : S4096x2048.Idx) :
    i ∈ ((cfg0.win 7).blk t).view.set ↔ ∀ a : Fin 2, win0_7.index t a * S128x512.size a ≤ (i a).val ∧ (i a).val < win0_7.index t a * S128x512.size a + S128x512.size a := by
  show i ∈ ((View.whole main_v8_1).slice (win0_7.rect t)).set ↔ _
  rw [View.set_slice_whole, Rect.mem_set_unit]
  exact Iff.rfl

/-- Every entry (r, n) of the [4096, 2048] hidden-state array is in the block of the point with i = r / 128, j = n / 512. -/
theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 128, by omega⟩ ⟨(i 1).val / 512, by omega⟩
  have q0 : win0_6.index t (0 : Fin 2) = (i 0).val / 128 := congrFun ht 0
  have q1 : win0_6.index t (1 : Fin 2) = (i 1).val / 512 := congrFun ht 1
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 512 ≤ (i 1).val ∧ (i 1).val < win0_6.index t (1 : Fin 2) * 512 + 512; omega

/-- The same for the cell-state array. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 128, by omega⟩ ⟨(i 1).val / 512, by omega⟩
  have q0 : win0_6.index t (0 : Fin 2) = (i 0).val / 128 := congrFun ht 0
  have q1 : win0_6.index t (1 : Fin 2) = (i 1).val / 512 := congrFun ht 1
  obtain ⟨-, -, -, -, -, -, -, -, -, -, -, -, -, -, d0, d1, -, -⟩ := idx_facts t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 512 ≤ (i 1).val ∧ (i 1).val < win0_7.index t (1 : Fin 2) * 512 + 512; omega

/-- After the run the first result array is the new hidden state. -/
theorem final_hidden (c : Dev nD) : (dats m 0 c).arrAt 6 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 6 (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_hidden m c t) cover6

/-- After the run the second result array is the new cell state. -/
theorem final_cell (c : Dev nD) : (dats m 0 c).arrAt 7 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 7 (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_cell m c t) cover7

/-! ## The run, read -/

/-- Every weakly fair execution of the kernel program terminates with the two results at the cell step of the arguments,
    the arguments unchanged. -/
theorem run : θ_run defs (onTc (τ := τ) (main (F := Ideal))) ⟨m, fun _ => 0, ρ⟩ fun r => ∀ c : Dev nD,
      r.2.mem ((c : Thread nD τ).loc main_v8_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v8_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).2.1.trans (final_cell m c), (h c).2.2⟩)
    (Cert.KernelIdeal.Value.run_blocks m ρ)

end Cert.CellArray

end
-- ==== Proof.RefCell.lean ====
/-
  The reference computes the cell step of CellSpec.

  The reference stacks the four gates' pre-activations in one [4096, 4, 2048] array: two contractions over the input
  feature (x against W, h against V, both over the weights' last axis), added, plus the three biases added and
  broadcast over the batch. Gate g is the slice [:, g, :] of it read as a [4096, 2048] matrix, so at (r, n) it is the
  stack at (r, g, n). The sigmoid is spelt 1 / (1 + exp (-a)) with the literal 1.0, which is the logistic function's
  definition on the extended reals; tanh is tanh. The rest is entrywise products and one sum.
-/
import proofs.«115387_j12618613916356_2_alg».proof.Proof.Gen.ReferenceIdeal.Read
import proofs.«115387_j12618613916356_2_alg».proof.Proof.CellSpec
import Idealize.ShloMosaic.Lib.ValueIdx

noncomputable section

open scoped BigOperators

namespace Cert.RefCell

open Cert.ReferenceIdeal Cert.ReferenceIdeal.Read Idealize.ShloMosaic Idealize.ShloMosaic.ValueIdx Cert.Cell

/-- The f32 pattern of 1.0 denotes the real number 1. -/
theorem one_f32 : Ideal.ofBits .f32 0x3F800000#32 = 1 := by
  simp [Ideal.ofBits, Ideal.ieee, -EReal.coe_mul]; norm_num

/-- `1 / (1 + exp (-a))`, in the host's division, exponential and negation with the literal 1.0, is the logistic
    function of `a` on every extended real: it is that function's definition. -/
theorem sigmoid_spelt (a : EReal) :
    FloatOps.hostDivf (F := Ideal) (φ := .f32) (FloatOps.ofBits .f32 0x3F800000#32)
        (FloatOps.addf (FloatOps.ofBits .f32 0x3F800000#32) (FloatOps.hostUnary .exp (FloatOps.hostNegf a)))
      = Ideal.logistic a := by
  show Ideal.div (Ideal.ofBits .f32 0x3F800000#32) (Ideal.ofBits .f32 0x3F800000#32 + Ideal.exp (-a)) = Ideal.div 1 (1 + Ideal.exp (-a))
  rw [one_f32]

variable (x0 x1 x2 : (⟨S4096x2048, .f32⟩ : BufTy).Contents (Elt Ideal)) (x3 : (⟨S4x2048x2048, .f32⟩ : BufTy).Contents (Elt Ideal))
  (x4 : (⟨S4x2048, .f32⟩ : BufTy).Contents (Elt Ideal)) (x5 : (⟨S4x2048x2048, .f32⟩ : BufTy).Contents (Elt Ideal))
  (x6 x7 : (⟨S4x2048, .f32⟩ : BufTy).Contents (Elt Ideal))

/-! ## Where each operand is read for the stack's entry (r, g, n) -/

theorem lhs0 (r : Fin 4096) (g : Fin 4) (n k : Fin 2048) : lidx_main_v0 (ix3 r g n) k = ix2 r k :=
  funext fun a => Fin.ext (by match a with | ⟨0, _⟩ => rfl | ⟨1, _⟩ => rfl)
theorem rhs0 (r : Fin 4096) (g : Fin 4) (n k : Fin 2048) : ridx_main_v0 (ix3 r g n) k = ix3 g n k :=
  funext fun a => Fin.ext (by match a with | ⟨0, _⟩ => rfl | ⟨1, _⟩ => rfl | ⟨2, _⟩ => rfl)
theorem lhs1 (r : Fin 4096) (g : Fin 4) (n k : Fin 2048) : lidx_main_v1 (ix3 r g n) k = ix2 r k :=
  funext fun a => Fin.ext (by match a with | ⟨0, _⟩ => rfl | ⟨1, _⟩ => rfl)
theorem rhs1 (r : Fin 4096) (g : Fin 4) (n k : Fin 2048) : ridx_main_v1 (ix3 r g n) k = ix3 g n k :=
  funext fun a => Fin.ext (by match a with | ⟨0, _⟩ => rfl | ⟨1, _⟩ => rfl | ⟨2, _⟩ => rfl)
theorem bias_idx (r : Fin 4096) (g : Fin 4) (n : Fin 2048) : idx_main_v5 (idx_main_v6 (ix3 r g n)) = ix2 g n :=
  funext fun a => Fin.ext (by match a with | ⟨0, _⟩ => rfl | ⟨1, _⟩ => rfl)

/-- The stacked pre-activations at `(r, g, n)`: gate `g`'s pre-activation at row `r` and hidden unit `n`. -/
theorem preact_apply (r : Fin 4096) (g : Fin 4) (n : Fin 2048) :
    val_main_v7 (F := Ideal) x0 x1 x3 x4 x5 x6 x7 (ix3 r g n) = gate x0 x1 x3 x4 x5 x6 x7 g r n := by
  rw [val_main_v7_apply, val_main_v2_apply, val_main_v0_apply, val_main_v1_apply, val_main_v6_apply, val_main_v5_apply,
    val_main_v4_apply, val_main_v3_apply]
  simp only [lhs0, rhs0, lhs1, rhs1, bias_idx]
  rfl

/-! ## The four slices: gate g as a [4096, 2048] matrix -/

theorem slice0_idx (r : Fin 4096) (n : Fin 2048) : idx_main_v8 (idx_main_v9 (ix2 r n)) = ix3 r (0 : Fin 4) n := by
  funext a; apply Fin.ext
  have hn := n.isLt
  match a with
  | ⟨0, _⟩ => show (r.val * 2048 + n.val) / 2048 = r.val; omega
  | ⟨1, _⟩ => rfl
  | ⟨2, _⟩ => show (r.val * 2048 + n.val) % 2048 = n.val; omega
theorem slice1_idx (r : Fin 4096) (n : Fin 2048) : idx_main_v16 (idx_main_v17 (ix2 r n)) = ix3 r (1 : Fin 4) n := by
  funext a; apply Fin.ext
  have hn := n.isLt
  match a with
  | ⟨0, _⟩ => show (r.val * 2048 + n.val) / 2048 = r.val; omega
  | ⟨1, _⟩ => rfl
  | ⟨2, _⟩ => show (r.val * 2048 + n.val) % 2048 = n.val; omega
theorem slice2_idx (r : Fin 4096) (n : Fin 2048) : idx_main_v24 (idx_main_v25 (ix2 r n)) = ix3 r (2 : Fin 4) n := by
  funext a; apply Fin.ext
  have hn := n.isLt
  match a with
  | ⟨0, _⟩ => show (r.val * 2048 + n.val) / 2048 = r.val; omega
  | ⟨1, _⟩ => rfl
  | ⟨2, _⟩ => show (r.val * 2048 + n.val) % 2048 = n.val; omega
theorem slice3_idx (r : Fin 4096) (n : Fin 2048) : idx_main_v32 (idx_main_v33 (ix2 r n)) = ix3 r (3 : Fin 4) n := by
  funext a; apply Fin.ext
  have hn := n.isLt
  match a with
  | ⟨0, _⟩ => show (r.val * 2048 + n.val) / 2048 = r.val; omega
  | ⟨1, _⟩ => rfl
  | ⟨2, _⟩ => show (r.val * 2048 + n.val) % 2048 = n.val; omega

/-- The forget gate at `(r, n)`. -/
theorem forget_apply (r : Fin 4096) (n : Fin 2048) :
    val_main_v15 (F := Ideal) x0 x1 x3 x4 x5 x6 x7 (ix2 r n) = Ideal.logistic (gate x0 x1 x3 x4 x5 x6 x7 0 r n) := by
  rw [val_main_v15_apply, val_main_v14_apply, val_main_cst_0_apply, val_main_v13_apply, val_main_v12_apply, val_main_cst_apply,
    val_main_v11_apply, val_main_v10_apply, val_main_v9_apply, val_main_v8_apply, slice0_idx, preact_apply]
  exact sigmoid_spelt _

/-- The input gate at `(r, n)`. -/
theorem input_apply (r : Fin 4096) (n : Fin 2048) :
    val_main_v23 (F := Ideal) x0 x1 x3 x4 x5 x6 x7 (ix2 r n) = Ideal.logistic (gate x0 x1 x3 x4 x5 x6 x7 1 r n) := by
  rw [val_main_v23_apply, val_main_v22_apply, val_main_cst_2_apply, val_main_v21_apply, val_main_v20_apply, val_main_cst_1_apply,
    val_main_v19_apply, val_main_v18_apply, val_main_v17_apply, val_main_v16_apply, slice1_idx, preact_apply]
  exact sigmoid_spelt _

/-- The output gate at `(r, n)`. -/
theorem output_apply (r : Fin 4096) (n : Fin 2048) :
    val_main_v31 (F := Ideal) x0 x1 x3 x4 x5 x6 x7 (ix2 r n) = Ideal.logistic (gate x0 x1 x3 x4 x5 x6 x7 2 r n) := by
  rw [val_main_v31_apply, val_main_v30_apply, val_main_cst_4_apply, val_main_v29_apply, val_main_v28_apply, val_main_cst_3_apply,
    val_main_v27_apply, val_main_v26_apply, val_main_v25_apply, val_main_v24_apply, slice2_idx, preact_apply]
  exact sigmoid_spelt _

/-- The candidate at `(r, n)`. -/
theorem candidate_apply (r : Fin 4096) (n : Fin 2048) :
    val_main_v34 (F := Ideal) x0 x1 x3 x4 x5 x6 x7 (ix2 r n) = Ideal.tanh (gate x0 x1 x3 x4 x5 x6 x7 3 r n) := by
  rw [val_main_v34_apply, val_main_v33_apply, val_main_v32_apply, slice3_idx, preact_apply]
  rfl

/-! ## The two results -/

/-- The reference's second result is the new cell state. -/
theorem cell_eq : val_main_v37 (F := Ideal) x0 x1 x2 x3 x4 x5 x6 x7 = cellArr x0 x1 x2 x3 x4 x5 x6 x7 := by
  funext i
  obtain ⟨r, n, rfl⟩ : ∃ (r : Fin 4096) (n : Fin 2048), i = ix2 r n := ⟨i 0, i 1, eq_ix2 i⟩
  rw [val_main_v37_apply, val_main_v35_apply, val_main_v36_apply, forget_apply, input_apply, candidate_apply]
  rfl

/-- The reference's first result is the new hidden state. -/
theorem hidden_eq : val_main_v39 (F := Ideal) x0 x1 x2 x3 x4 x5 x6 x7 = hiddenArr x0 x1 x2 x3 x4 x5 x6 x7 := by
  funext i
  obtain ⟨r, n, rfl⟩ : ∃ (r : Fin 4096) (n : Fin 2048), i = ix2 r n := ⟨i 0, i 1, eq_ix2 i⟩
  rw [val_main_v39_apply, val_main_v38_apply, output_apply, congrFun (cell_eq x0 x1 x2 x3 x4 x5 x6 x7) (ix2 r n)]
  rfl

end Cert.RefCell

end
-- ==== Proof.lean ====
/-
  One LSTM cell step computed tile by tile equals the reference's, on the extended reals.

  The kernel adds the three biases, rounds x and h to a narrower format and exchanges the last two axes of the two
  weight stacks before its grid; each of its 4 × 32 grid points then forms, for a 128 × 512 tile, the four gates'
  pre-activations  x · Wᵀ + h · Vᵀ + bias  from zero accumulators, and from them the new cell and hidden states. The
  reference contracts x and h against the weights' last axis for all gates at once, adds the same biases in the same
  order, slices the four gates out and applies the same entrywise formulas, its sigmoid spelt 1 / (1 + exp (-a)).

  Read exactly, a change of float format is the identity, a product accumulated from zero is the sum of products, and
  the spelt sigmoid is the logistic function by definition. Both programs therefore end with, at row r and hidden unit n,
      c'(r, n) = σ(a_0) · c[r, n] + σ(a_1) · tanh(a_3)   and   h'(r, n) = σ(a_2) · tanh(c'(r, n)),
      a_g(r, n) = (Σ_k x[r, k] · W[g, n, k] + Σ_k h[r, k] · V[g, n, k]) + ((bW[g, n] + bV[g, n]) + b[g, n]),
  the sums grouped alike on both sides, so no law of arithmetic that could fail at an infinity is used and the
  finiteness of the inputs is never needed. CellSpec states these functions; RefCell shows the reference computes
  them; BlockGate, BlockCell and BlockIsCell show a grid point's tile holds them; CellArray carries the tiles to the
  arrays and states the kernel's run. No operation of the kernel was rewritten in its exact reading, so the
  idealization claim has nothing to state.
-/
import proofs.«115387_j12618613916356_2_alg».proof.Defs
import proofs.«115387_j12618613916356_2_alg».proof.Proof.Gen.Kernel
import proofs.«115387_j12618613916356_2_alg».proof.Proof.Gen.Kernel.Frame
import proofs.«115387_j12618613916356_2_alg».proof.Proof.Gen.KernelIdeal
import proofs.«115387_j12618613916356_2_alg».proof.Proof.Gen.KernelIdeal.Frame
import proofs.«115387_j12618613916356_2_alg».proof.Proof.Gen.KernelIdeal.Value
import proofs.«115387_j12618613916356_2_alg».proof.Proof.Gen.ReferenceIdeal
import proofs.«115387_j12618613916356_2_alg».proof.Proof.Gen.ReferenceIdeal.Run
import proofs.«115387_j12618613916356_2_alg».proof.Proof.Gen.ReferenceIdeal.Read
import proofs.«115387_j12618613916356_2_alg».proof.Proof.Gen.Pre_finite_inputs
import proofs.«115387_j12618613916356_2_alg».proof.Proof.CellArray
import proofs.«115387_j12618613916356_2_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does its exact reading. -/
theorem frame_kernel_ideal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The exact reading rewrote no operation of the kernel. -/
theorem preserves : Cert.preserves_Kernel_KernelIdeal := trivial

/-- From memories agreeing on the eight arguments, the kernel's exact reading and the reference both end with the new
    hidden state and the new cell state of CellSpec, as functions of those arguments. -/
theorem algebraic : Cert.algebraic_KernelIdeal_ReferenceIdeal := by
  intro m ρ m' ρ' _ hagree
  refine ⟨_, _, Cert.CellArray.run m ρ, ?_⟩
  refine (θ_run Cert.ReferenceIdeal.defs _ _).mono (fun r h c => ?_) (Cert.ReferenceIdeal.Value.run (F := Ideal) m' ρ')
  obtain ⟨e0, e1, e2, e3, e4, e5, e6, e7⟩ := hagree c
  refine ⟨(h c).1.trans ?_, (h c).2.1.trans ?_, (h c).2.2⟩
  · refine (Cert.RefCell.hidden_eq _ _ _ _ _ _ _ _).trans ?_
    rw [e0, e1, e2, e3, e4, e5, e6, e7]
  · refine (Cert.RefCell.cell_eq _ _ _ _ _ _ _ _).trans ?_
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
